-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S50000x128 .f32) (main_arg1 : IVec S2x800000 32) (main_arg2 : FVec F S1x128 .f32) (main_arg3 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S5000 : Shape := ⟨1, ![5000]⟩
abbrev S1x1 : Shape := ⟨2, ![1, 1]⟩

abbrev nBuf : Space → Nat
  | .hbm => 86
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x1, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x1, .f32⟩
  | .hbm, ⟨62, _⟩ => ⟨S850000x1, .f32⟩
  | .hbm, ⟨63, _⟩ => ⟨S_, .f32⟩
  | .hbm, ⟨64, _⟩ => ⟨S50000x1, .f32⟩
  | .hbm, ⟨65, _⟩ => ⟨S850000x1, .i32⟩
  | .hbm, ⟨66, _⟩ => ⟨S50000x1, .f32⟩
  | .hbm, ⟨67, _⟩ => ⟨S850000x1, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x1, .f32⟩
  | .hbm, ⟨77, _⟩ => ⟨S850000x1, .f32⟩
  | .hbm, ⟨78, _⟩ => ⟨S_, .f32⟩
  | .hbm, ⟨79, _⟩ => ⟨S50000x1, .f32⟩
  | .hbm, ⟨80, _⟩ => ⟨S850000x1, .i32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S5000x1, .f32⟩
  | .local _ .vmem, ⟨4, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S128x1, .f32⟩
  | .hbm, ⟨85, _⟩ => ⟨S50000x1, .f32⟩
  | .hbm, ⟨86, _⟩ => ⟨S1x1, .f32⟩
  | .hbm, ⟨87, _⟩ => ⟨S50000x1, .f32⟩
  | .hbm, ⟨88, _⟩ => ⟨S50000x1, .f32⟩
  | .hbm, ⟨89, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRegion.lean ====
/-
  The region of the kernel: a grid of ten points, point `t` taking rows `5000·t … 5000·t + 4999` of the
  feature matrix `x : [50000, 128]` and the one weight row `W : [1, 128]`, and writing, for each of its rows `p`,
  the sum over the 128 columns of `x[row, k] · W[0, k]` into column 0 of the same rows of a `[50000, 1]` array.
  Read on the extended reals this is, row by row, the product of the matrix with the weight vector. This module
  reads the body's one stored value at an index (`pay_apply`), each input block as rows of its array, the block a
  point writes back (`flushed_eq`), the cover of the array by the ten blocks, and so the whole array after the
  region (`final`): the projection `proj x W` of the arrays the region finds.
-/
import proofs.«100970_j91250875171026_2_alg».proof.Defs
import proofs.«100970_j91250875171026_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The projection of a feature matrix onto a weight row: entry `(r, ·)` is `∑ₖ x[r, k] · w[0, k]`. -/
def proj (x : S50000x128.Idx → EReal) (w : S1x128.Idx → EReal) : S50000x1.Idx → EReal :=
  fun i => ∑ k : Fin 128, x (ix2 (⟨(i 0).val, idx2_lt0 i⟩ : Fin 50000) k) * w (ix2 (0 : Fin 1) k)

/-- The body's stored value at row `p` of its block: that row of the feature block against the weight row, summed
    over the 128 columns (the lane sum of the products, then the cast of the column of sums to `[5000, 1]`). -/
theorem pay_apply (x0 : Vec Ideal S5000x128 .f32) (x1 : Vec Ideal S1x128 .f32) (p : Fin 5000) (u : Fin 1) :
    k0_pay1 x0 x1 (ix2 p u) = ∑ k : Fin 128, x0 (ix2 p k) * x1 (ix2 (0 : Fin 1) k) := by
  unfold k0_pay1
  refine (shapeCast_apply _ shapeCasts_S5000_S5000x1 (ix2 p u) (ix1 p) ?_).trans ?_
  · rw [Shape.rowMajor_val_two, Shape.rowMajor_val_one]
    show p.val = p.val * 1 + u.val
    omega
  refine (Ideal.multiReduction_add_single _ 0x00000000#32 reduces_S5000x128_S5000 (.inl rfl) rfl (ix1 p)).trans ?_
  show ∑ k : Fin 128, _ = _
  refine Finset.sum_congr rfl fun k _ => ?_
  have hl : reduces_S5000x128_S5000.lift (ix1 p) k = ix2 p k := by
    funext c; apply Fin.ext
    match c with
    | ⟨0, _⟩ => rfl
    | ⟨1, _⟩ => rfl
  rw [hl, mulf_apply, shapeCast_self]
  exact congrArg (x0 (ix2 p k) * ·) (broadcastTo_1b_ab_apply x1 broadcasts_S1x128_S5000x128 p k)

/-- The printed index maps over the ten grid points: the feature window and the output window are at block row
    `t`, column block 0; the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000·t …` of the array the region finds. -/
theorem iblk0_apply (c : Dev nD) (t : Fin cfg0.N) (p : Fin 5000) (k : Fin 128) (r : Fin 50000) (hr : r.val = 5000 * t.val + p.val) :
    (iblk m c 0 t : Vec Ideal S5000x128 .f32) (ix2 p k) = (V m c main_arg0 : S50000x128.Idx → EReal) (ix2 r k) := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight window's block at every point is the weight row. -/
theorem iblk1_apply (c : Dev nD) (t : Fin cfg0.N) (k : Fin 128) :
    (iblk m c 1 t : Vec Ideal S1x128 .f32) (ix2 (0 : Fin 1) k) = (V m c main_arg2 : S1x128.Idx → EReal) (ix2 (0 : Fin 1) k) := by
  obtain ⟨-, -, e2, e3, -, -⟩ := idx_facts t
  unfold iblk
  rw [View.read_apply]
  show V m c main_arg2 _ = V m c main_arg2 _
  congr 1
  funext a
  apply Fin.ext
  match a with
  | ⟨0, _⟩ => show win0_1.index t (0 : Fin 2) * 1 + 1 * 0 = 0; rw [e2]
  | ⟨1, _⟩ => show win0_1.index t (1 : Fin 2) * 128 + 1 * k.val = k.val; rw [e3]; omega

/-- WHAT POINT `t` WRITES BACK is block `t` of the projection of the arrays the region finds. -/
theorem flushed_eq (c : Dev nD) (t : Fin cfg0.N) :
    (dats m 0 c).flushed 2 t = ((cfg0.win 2).blk t).view.read (Elt Ideal) (proj (V m c main_arg0) (V m c main_arg2)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S1x128) hz]
  obtain ⟨-, -, -, -, e4, e5⟩ := idx_facts t
  funext j
  obtain ⟨p, u, rfl⟩ : ∃ (p : Fin 5000) (u : Fin 1), j = ix2 p u := ⟨j 0, j 1, eq_ix2 j⟩
  show k0_pay1 (iblk m c 0 t) (iblk m c 1 t) (ix2 p u) = proj (V m c main_arg0) (V m c main_arg2) (((cfg0.win 2).blk t).view.emb (ix2 p u))
  refine (pay_apply (iblk m c 0 t) (iblk m c 1 t) p u).trans ?_
  unfold proj
  refine Finset.sum_congr rfl fun k _ => ?_
  rw [iblk1_apply m c t k]
  refine congrArg (· * _) ?_
  refine iblk0_apply m c t p k _ ?_
  show win0_2.index t (0 : Fin 2) * 5000 + 1 * p.val = 5000 * t.val + p.val
  rw [e4]; omega

/-- An index of the output array is in point `t`'s block iff each coordinate is in the block's range on its axis. -/
theorem mem_blk (t : Fin cfg0.N) (i : S50000x1.Idx) :
    i ∈ ((cfg0.win 2).blk t).view.set ↔ ∀ a : Fin 2, win0_2.index t a * S5000x1.size a ≤ (i a).val ∧ (i a).val < win0_2.index t a * S5000x1.size a + S5000x1.size a := by
  show i ∈ ((View.whole main_v33).slice (win0_2.rect t)).set ↔ _
  rw [View.set_slice_whole, Rect.mem_set_unit]
  exact Iff.rfl

/-- The ten blocks of 5000 rows cover the 50000 rows: row `r` is in the block of point `r / 5000`. -/
theorem cover (i : S50000x1.Idx) : ∃ t : Fin cfg0.N, (cfg0.win 2).flush t = true ∧ i ∈ ((cfg0.win 2).blk t).view.set := by
  have hi0 : (i 0).val < 50000 := idx2_lt0 i
  have hi1 : (i 1).val < 1 := idx2_lt1 i
  have hN : cfg0.N = 10 := N_0
  let t : Fin cfg0.N := ⟨(i 0).val / 5000, by rw [hN]; omega⟩
  obtain ⟨-, -, -, -, e4, e5⟩ := idx_facts t
  refine ⟨t, flush0_2 t, ?_⟩
  rw [mem_blk]
  have ht : t.val = (i 0).val / 5000 := rfl
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 1 ≤ (i 1).val ∧ (i 1).val < win0_2.index t (1 : Fin 2) * 1 + 1; rw [e5]; omega

/-- THE ARRAY after the region: the projection of the feature array onto the weight row, as the region finds them. -/
theorem final (c : Dev nD) : (dats m 0 c).arrAt 2 cfg0.N = proj (V m c main_arg0) (V m c main_arg2) :=
  (dats m 0 c).arrAt_eq_of_cover 2 (proj (V m c main_arg0) (V m c main_arg2)) (fun t _ => flushed_eq m c t) cover

end Cert.KernelIdeal.Hand

end
-- ==== Proof.LibRowGatherScatter.lean ====
/-
  ROW GATHER AND ROW SCATTER-ADD READ AT AN INDEX.

  Two host shape operations with fixed dimension numbers, for generic extents `N`, `M`, `C`:

  * the gather of WHOLE ROWS of a matrix `[N, C]` at a column `[M, 1]` of start indices: result element `(e, k)` is the
    operand at row `clamp (idx[e, 0])` — the start index read as a signed integer and clamped into `[0, N − 1]` — and
    column `k`;
  * the scatter-ADD of `M` update rows `[M, C]` into a matrix `[N, C]` at a column `[M, 1]` of scatter indices, over the
    extended reals: element `(i, k)` of the result is the operand's `(i, k)` plus the sum of the update elements `(e, k)`
    over the `e` whose index `idx[e, 0]`, read signed and NOT clamped, equals `i` (an update landing outside is dropped).
-/
import Idealize.ShloMosaic.Lib.ValueIdx

noncomputable section

open scoped BigOperators

namespace RowGatherScatter

open Idealize.ShloMosaic Idealize.ShloMosaic.ValueIdx

/-! ## The gather of whole rows -/

section Gather
variable {α : Type}

/-- The dimension numbers of a gather of whole rows: operand `[N, C]`, start indices `[M, 1]` (one scalar row index per
    result row, on the index vector's axis 1), result `[M, C]`; the operand's axis 0 is collapsed and indexed, the result's
    axis 1 is the offset axis running over a whole row (slice sizes `[1, C]`). -/
abbrev rowGather (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, and
    column `k`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowGather N M C wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGather N M C wf).start (ix2 e k) idx 0 + (rowGather N M C wf).batchCoord (ix2 e k) 0
      + (rowGather N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wf).startIndexMap from List.mem_singleton.mpr rfl)]
    have hsi : (rowGather N M C wf).siIdx (ix2 e k) ⟨List.idxOf (0 : Fin 2) (rowGather N M C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGather N M C wf).start (ix2 e k) idx 1 + (rowGather N M C wf).batchCoord (ix2 e k) 1
      + (rowGather N M C wf).offCoord (ix2 e k) 1 = _
    rw [GatherDims.batchCoord_eq_zero _ _ _ List.not_mem_nil]
    unfold GatherDims.start
    rw [dif_neg (show (1 : Fin 2) ∉ (rowGather N M C wf).startIndexMap from
      fun h => absurd (List.mem_singleton.mp h) (show (1 : Fin 2) ≠ 0 by decide))]
    simp only [Nat.add_zero, Nat.zero_add]
    rfl

end Gather

/-! ## The scatter-add of rows -/

section Scatter

/-- The dimension numbers of a scatter of rows: operand `[N, C]`, scatter indices `[M, 1]` (one scalar row index per
    update row, on the index vector's axis 1), updates `[M, C]`; the operand's axis 0 is inserted and indexed, the
    updates' axis 1 is the window axis running over a whole row. -/
abbrev rowScatter (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the row axis the window of update `(e, k)` starts at the scatter index `idx[e, 0]`, read signed. -/
theorem rowScatter_start_zero (idx : IVec ⟨2, ![M, 1]⟩ w) (e : Fin M) (k : Fin C) :
    (rowScatter N M C wf).start (ix2 e k) idx 0 = (idx (ix2 e ⟨0, Nat.one_pos⟩)).toInt := by
  unfold ScatterDims.start
  rw [dif_pos (show (0 : Fin 2) ∈ (rowScatter N M C wf).scatterDimsToOperandDims from List.mem_singleton.mpr rfl)]
  have hsi : (rowScatter N M C wf).siIdx (ix2 e k) ⟨List.idxOf (0 : Fin 2) (rowScatter N M C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which the scatter index does not name, the window starts at `0`. -/
theorem rowScatter_start_one (idx : IVec ⟨2, ![M, 1]⟩ w) (e : Fin M) (k : Fin C) :
    (rowScatter N M C wf).start (ix2 e k) idx 1 = 0 := by
  unfold ScatterDims.start
  rw [dif_neg (show (1 : Fin 2) ∉ (rowScatter N M C wf).scatterDimsToOperandDims from
    fun h => absurd (List.mem_singleton.mp h) (show (1 : Fin 2) ≠ 0 by decide))]

/-- The row axis is inserted: the window coordinate there is `0`. -/
theorem rowScatter_window_zero (e : Fin M) (k : Fin C) :
    (rowScatter N M C wf).window (ix2 e k) 0 = 0 := by
  unfold ScatterDims.window
  rw [dif_neg (show (0 : Fin 2) ∉ (rowScatter N M C wf).sKept from
    fun h => (of_decide_eq_true (List.mem_filter.mp h).2) (List.mem_singleton.mpr rfl))]

/-- The column axis is the window axis: the window coordinate there is the update's column. -/
theorem rowScatter_window_one (e : Fin M) (k : Fin C) :
    (rowScatter N M C wf).window (ix2 e k) 1 = k.val := by
  unfold ScatterDims.window
  rw [dif_pos (show (1 : Fin 2) ∈ (rowScatter N M C wf).sKept from
    List.mem_filter.mpr ⟨List.mem_finRange _, decide_eq_true
      (fun h => absurd (List.mem_singleton.mp h) (show (1 : Fin 2) ≠ 0 by decide))⟩)]
  rfl

/-- WHERE AN UPDATE LANDS: update `(e, k)` lands at operand element `(i, k')` exactly when its scatter index
    `idx[e, 0]`, read signed, is `i`, and `k = k'`. -/
theorem rowScatter_resultIdx?_eq_some_iff (idx : IVec ⟨2, ![M, 1]⟩ w) (e : Fin M) (k : Fin C) (i : Fin N) (k' : Fin C) :
    (rowScatter N M C wf).resultIdx? (ix2 e k) idx = some (ix2 i k')
      ↔ ((idx (ix2 e ⟨0, Nat.one_pos⟩)).toInt = (i.val : ℤ) ∧ k = k') := by
  have h0s := rowScatter_start_zero wf idx e k
  have h1s := rowScatter_start_one wf idx e k
  have h0w := rowScatter_window_zero wf e k
  have h1w := rowScatter_window_one wf e k
  unfold ScatterDims.resultIdx?
  split_ifs with h
  · rw [Option.some.injEq]
    constructor
    · intro heq
      have e0 : ((rowScatter N M C wf).start (ix2 e k) idx 0 + (rowScatter N M C wf).window (ix2 e k) 0).toNat = i.val :=
        congrArg (fun f => (f 0).val) heq
      have e1 : ((rowScatter N M C wf).start (ix2 e k) idx 1 + (rowScatter N M C wf).window (ix2 e k) 1).toNat = k'.val :=
        congrArg (fun f => (f 1).val) heq
      have p0 := (h 0).1
      rw [h0s, h0w] at e0 p0
      rw [h1s, h1w] at e1
      exact ⟨by omega, Fin.ext (by omega)⟩
    · rintro ⟨hi, rfl⟩
      funext a; refine Fin.ext ?_
      match a with
      | ⟨0, _⟩ =>
        show ((rowScatter N M C wf).start (ix2 e k) idx 0 + (rowScatter N M C wf).window (ix2 e k) 0).toNat = i.val
        rw [h0s, h0w, hi]; omega
      | ⟨1, _⟩ =>
        show ((rowScatter N M C wf).start (ix2 e k) idx 1 + (rowScatter N M C wf).window (ix2 e k) 1).toNat = k.val
        rw [h1s, h1w]; omega
  · constructor
    · intro h'; exact absurd h' (by simp)
    · rintro ⟨hi, rfl⟩
      exfalso; apply h; intro a
      match a with
      | ⟨0, _⟩ =>
        show 0 ≤ (rowScatter N M C wf).start (ix2 e k) idx 0 + (rowScatter N M C wf).window (ix2 e k) 0
          ∧ (rowScatter N M C wf).start (ix2 e k) idx 0 + (rowScatter N M C wf).window (ix2 e k) 0 < (N : ℤ)
        rw [h0s, h0w, hi]; have := i.isLt; omega
      | ⟨1, _⟩ =>
        show 0 ≤ (rowScatter N M C wf).start (ix2 e k) idx 1 + (rowScatter N M C wf).window (ix2 e k) 1
          ∧ (rowScatter N M C wf).start (ix2 e k) idx 1 + (rowScatter N M C wf).window (ix2 e k) 1 < (C : ℤ)
        rw [h1s, h1w]; have := k.isLt; omega

/-- THE ROW SCATTER-ADD READ AT `(i, k)`: the operand's element plus the sum of the update elements `(e, k)` over the
    `e` whose scatter index `idx[e, 0]`, read signed and not clamped, is `i`. -/
theorem rowScatterAdd_apply (x : (⟨2, ![N, C]⟩ : Shape).Idx → EReal) (idx : IVec ⟨2, ![M, 1]⟩ w)
    (upd : (⟨2, ![M, C]⟩ : Shape).Idx → EReal) (i : Fin N) (k : Fin C) :
    Ideal.hostScatterAdd (rowScatter N M C wf) x idx upd (ix2 i k)
      = x (ix2 i k) + ∑ e ∈ Finset.univ.filter (fun e : Fin M => (idx (ix2 e ⟨0, Nat.one_pos⟩)).toInt = (i.val : ℤ)),
          upd (ix2 e k) := by
  unfold Ideal.hostScatterAdd
  congr 1
  rw [Finset.sum_filter, sum_idx2, Finset.sum_filter]
  refine Finset.sum_congr rfl (fun e _ => ?_)
  simp only [rowScatter_resultIdx?_eq_some_iff]
  by_cases hi : (idx (ix2 e ⟨0, Nat.one_pos⟩)).toInt = (i.val : ℤ)
  · simp only [hi, true_and, if_true]
    rw [Finset.sum_ite_eq']
    simp
  · simp only [hi, false_and, if_false, Finset.sum_const_zero]

end Scatter

end RowGatherScatter

end
-- ==== Proof.LibColumnLayout.lean ====
/-
  Layout operations of column-shaped arrays read at an index: an array `[M]` broadcast to a column `[M, 1]`, a
  column `[M, 1]` broadcast along rows to `[M, C]`, a scalar broadcast to any shape, a one-element array
  broadcast to a column, and the casts between `[N]` and `[N, 1]`. Each reads the operand at the evident index;
  stated over generic extents so that they serve every array of these forms.
-/
import Idealize.ShloMosaic.Lib.Pipeline.Value
import Idealize.ShloMosaic.Lib.ValueIdx

noncomputable section

open Idealize.ShloMosaic Idealize.ShloMosaic.ValueIdx

namespace ColumnLayout

variable {α : Type}

/-- An array `[M]` broadcast to the column `[M, 1]` reads, at `(e, u)`, the operand at `e`. -/
theorem bcast_col_apply {M : ℕ} (h : (⟨1, ![M]⟩ : Shape).BroadcastsInDim ⟨2, ![M, 1]⟩ ![0])
    (x : (⟨1, ![M]⟩ : Shape).Idx → α) (e : Fin M) (u : Fin 1) :
    broadcastInDim ⟨2, ![M, 1]⟩ ![0] h x (ix2 e u) = x (ix1 e) := by
  refine broadcastInDim_apply _ h x (ix2 e u) (ix1 e) fun a => ?_
  match a with
  | ⟨0, _⟩ =>
    show e.val = if M = 1 then 0 else e.val
    split
    · have := e.isLt; omega
    · rfl

/-- A column `[M, 1]` broadcast along its rows to `[M, C]` reads, at `(e, k)`, the operand at `(e, 0)`. -/
theorem bcast_rows_apply {M C : ℕ} (h : (⟨2, ![M, 1]⟩ : Shape).BroadcastsInDim ⟨2, ![M, C]⟩ ![0, 1])
    (x : (⟨2, ![M, 1]⟩ : Shape).Idx → α) (e : Fin M) (k : Fin C) :
    broadcastInDim ⟨2, ![M, C]⟩ ![0, 1] h x (ix2 e k) = x (ix2 e (0 : Fin 1)) := by
  refine broadcastInDim_apply _ h x (ix2 e k) (ix2 e (0 : Fin 1)) fun a => ?_
  match a with
  | ⟨0, _⟩ =>
    show e.val = if M = 1 then 0 else e.val
    split
    · have := e.isLt; omega
    · rfl
  | ⟨1, _⟩ =>
    show 0 = if (1 : ℕ) = 1 then 0 else k.val
    rw [if_pos rfl]

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply _ h x j ix0 fun a => a.elim0

/-- A one-element array `[1]` placed as `[1, 1]` and broadcast down a column `[N, 1]` reads its one element. -/
theorem bcast_one_col_apply {N : ℕ} (h1 : (⟨1, ![1]⟩ : Shape).BroadcastsInDim ⟨2, ![1, 1]⟩ ![1])
    (h2 : (⟨2, ![1, 1]⟩ : Shape).BroadcastsInDim ⟨2, ![N, 1]⟩ ![0, 1])
    (x : (⟨1, ![1]⟩ : Shape).Idx → α) (r : Fin N) (u : Fin 1) :
    broadcastInDim ⟨2, ![N, 1]⟩ ![0, 1] h2 (broadcastInDim ⟨2, ![1, 1]⟩ ![1] h1 x) (ix2 r u) = x (ix1 (0 : Fin 1)) := by
  refine (broadcastInDim_apply _ h2 _ (ix2 r u) (ix2 (0 : Fin 1) (0 : Fin 1)) fun a => ?_).trans ?_
  · match a with
    | ⟨0, _⟩ => show 0 = if (1 : ℕ) = 1 then 0 else r.val; rw [if_pos rfl]
    | ⟨1, _⟩ => show 0 = if (1 : ℕ) = 1 then 0 else u.val; rw [if_pos rfl]
  · refine broadcastInDim_apply _ h1 x (ix2 (0 : Fin 1) (0 : Fin 1)) (ix1 (0 : Fin 1)) fun a => ?_
    match a with
    | ⟨0, _⟩ => show 0 = if (1 : ℕ) = 1 then 0 else 0; rw [if_pos rfl]

/-- A column `[N, 1]` cast to `[N]` reads, at `r`, the operand at `(r, 0)`. -/
theorem cast_col_flat_apply {N : ℕ} (h : (⟨2, ![N, 1]⟩ : Shape).ShapeCasts ⟨1, ![N]⟩)
    (x : (⟨2, ![N, 1]⟩ : Shape).Idx → α) (r : Fin N) :
    shapeCast ⟨1, ![N]⟩ x h (ix1 r) = x (ix2 r (0 : Fin 1)) :=
  shapeCast_apply x h _ _ (by
    rw [Shape.rowMajor_val_two, Shape.rowMajor_val_one]
    show r.val * 1 + 0 = r.val
    omega)

end ColumnLayout

end
-- ==== Proof.LibEdgeHop.lean ====
/-
  One hop of a weighted graph propagation, read at an index, for generic extents: `N` nodes, `M` edges, `C` feature
  columns. The hop gathers, for every edge, the row of the operand `h : [N, C]` at the edge's source (the index
  read signed and clamped into `[0, N-1]`), multiplies it by the edge's weight, and scatter-adds the products into
  a zero array at the edge's destination row (read signed, an update outside `[0, N)` dropped). At the exact-real
  instance entry `(r, k)` of the result is `0 + ∑ over the edges e whose destination is r of w[e] · h[src e, k]`.
  Two forms, as the two ways of writing the weighting: the weight column `[M, 1]` broadcast along the `C` columns
  (`hop`), and, for one column, the weight column itself (`hopCol`). Stated over generic extents, so that no
  literal extent is ever evaluated; a program's hop is an instance of these by unfolding definitions.
-/
import Idealize.ShloMosaic.Lib.Pipeline.Value
import Idealize.ShloMosaic.Lib.ValueIdx
import Idealize.ShloMosaic.PureOps.Ideal.Laws
import proofs.«100970_j91250875171026_2_alg».proof.Proof.LibRowGatherScatter
import proofs.«100970_j91250875171026_2_alg».proof.Proof.LibColumnLayout

noncomputable section

open Idealize.ShloMosaic Idealize.ShloMosaic.ValueIdx

namespace EdgeHop

variable {N M C : ℕ}

/-- At the exact-real instance the host's accumulating scatter IS the exact sum (stated for arbitrary operands). -/
theorem scatterAdd_eq {s si su : Shape} {w : ℕ} (d : ScatterDims s si su) (x : s.Idx → EReal) (idx : IVec si w) (upd : su.Idx → EReal) :
    Host.scatterAdd (F := Ideal) (φ := .f32) d x idx upd = Ideal.hostScatterAdd d x idx upd := rfl

/-- The sum of real numbers, seen in the extended reals, is the extended-real sum. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- Scatter-adding ones into zeros counts: every entry of the result is a natural number, whatever the indices. -/
theorem scatterAdd_ones_nat {s si su : Shape} {w : ℕ} (d : ScatterDims s si su) (x : s.Idx → EReal) (idx : IVec si w)
    (upd : su.Idx → EReal) (i : s.Idx) (hx : x i = 0) (hu : ∀ j, upd j = 1) :
    ∃ n : ℕ, Host.scatterAdd (F := Ideal) (φ := .f32) d x idx upd i = ((n : ℝ) : EReal) := by
  rw [scatterAdd_eq]
  unfold Ideal.hostScatterAdd
  refine ⟨(Finset.univ.filter (fun j => d.resultIdx? j idx = some i)).card, ?_⟩
  rw [hx, zero_add, Finset.sum_congr rfl (fun j _ => (hu j).trans EReal.coe_one.symm), ← coe_sum]
  simp

/-- A gather of an array of real numbers reads a real number, whichever entry the index picks. -/
theorem gather_real {s si t : Shape} {w : ℕ} (d : GatherDims s si t) (x : s.Idx → EReal) (hx : ∀ i, ∃ r : ℝ, x i = (r : EReal))
    (idx : IVec si w) (j : t.Idx) : ∃ r : ℝ, Host.gather d x idx j = (r : EReal) := by
  unfold Host.gather
  exact hx _

/-- The source row of edge `e`: its index read signed and clamped into `[0, N-1]`. -/
def srcRow (hN : 0 < N) (s : IVec ⟨1, ![M]⟩ 32) (e : Fin M) : Fin N :=
  ⟨min (s (ix1 e)).toInt.toNat (N - 1), by omega⟩

/-- One hop on `C` columns, the weight column broadcast along them. -/
def hop (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ ![])
    (hc : (⟨1, ![M]⟩ : Shape).BroadcastsInDim ⟨2, ![M, 1]⟩ ![0])
    (hr : (⟨2, ![M, 1]⟩ : Shape).BroadcastsInDim ⟨2, ![M, C]⟩ ![0, 1])
    (zero : (⟨0, ![]⟩ : Shape).Idx → EReal) (nrm : (⟨1, ![M]⟩ : Shape).Idx → EReal) (srcw dst : IVec ⟨1, ![M]⟩ 32)
    (h : (⟨2, ![N, C]⟩ : Shape).Idx → EReal) : (⟨2, ![N, C]⟩ : Shape).Idx → EReal :=
  Host.scatterAdd (F := Ideal) (φ := .f32) (RowGatherScatter.rowScatter N M C wfS)
    (broadcastInDim ⟨2, ![N, C]⟩ ![] hz zero)
    (broadcastInDim ⟨2, ![M, 1]⟩ ![0] hc dst)
    (mulf (F := Ideal) (φ := .f32) (broadcastInDim ⟨2, ![M, C]⟩ ![0, 1] hr (broadcastInDim ⟨2, ![M, 1]⟩ ![0] hc nrm))
      (Host.gather (RowGatherScatter.rowGather N M C wfG) h (broadcastInDim ⟨2, ![M, 1]⟩ ![0] hc srcw)))

/-- ONE HOP AT AN INDEX. -/
theorem hop_apply (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ ![])
    (hc : (⟨1, ![M]⟩ : Shape).BroadcastsInDim ⟨2, ![M, 1]⟩ ![0])
    (hr : (⟨2, ![M, 1]⟩ : Shape).BroadcastsInDim ⟨2, ![M, C]⟩ ![0, 1])
    (zero : (⟨0, ![]⟩ : Shape).Idx → EReal) (hzero : zero ix0 = 0) (nrm : (⟨1, ![M]⟩ : Shape).Idx → EReal)
    (srcw dst : IVec ⟨1, ![M]⟩ 32) (h : (⟨2, ![N, C]⟩ : Shape).Idx → EReal) (hN : 0 < N) (r : Fin N) (k : Fin C) :
    hop wfS wfG hz hc hr zero nrm srcw dst h (ix2 r k)
      = 0 + ∑ e ∈ Finset.univ.filter (fun e : Fin M => (dst (ix1 e)).toInt = (r.val : ℤ)),
          nrm (ix1 e) * h (ix2 (srcRow hN srcw e) k) := by
  unfold hop
  rw [scatterAdd_eq, RowGatherScatter.rowScatterAdd_apply]
  have hd : ∀ e : Fin M, broadcastInDim ⟨2, ![M, 1]⟩ ![0] hc dst (ix2 e ⟨0, Nat.one_pos⟩) = dst (ix1 e) :=
    fun e => ColumnLayout.bcast_col_apply hc dst e _
  simp only [hd]
  refine congrArg₂ (· + ·) ?_ (Finset.sum_congr rfl fun e _ => ?_)
  · exact (ColumnLayout.bcast_scalar_apply _ hz zero _).trans hzero
  · rw [mulf_apply, ColumnLayout.bcast_rows_apply hr _ e k, ColumnLayout.bcast_col_apply hc nrm e _,
      RowGatherScatter.rowGather_apply hN wfG h _ e k]
    refine congrArg (fun t => nrm (ix1 e) * h (ix2 t k)) (Fin.ext ?_)
    show min (broadcastInDim ⟨2, ![M, 1]⟩ ![0] hc srcw (ix2 e ⟨0, Nat.one_pos⟩)).toInt.toNat (N - 1) = min (srcw (ix1 e)).toInt.toNat (N - 1)
    rw [ColumnLayout.bcast_col_apply hc srcw e ⟨0, Nat.one_pos⟩]

/-- TWO HOPS AT AN INDEX. -/
theorem hop_hop_apply (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ ![])
    (hc : (⟨1, ![M]⟩ : Shape).BroadcastsInDim ⟨2, ![M, 1]⟩ ![0])
    (hr : (⟨2, ![M, 1]⟩ : Shape).BroadcastsInDim ⟨2, ![M, C]⟩ ![0, 1])
    (zero : (⟨0, ![]⟩ : Shape).Idx → EReal) (hzero : zero ix0 = 0) (nrm : (⟨1, ![M]⟩ : Shape).Idx → EReal)
    (srcw dst : IVec ⟨1, ![M]⟩ 32) (h : (⟨2, ![N, C]⟩ : Shape).Idx → EReal) (hN : 0 < N) (r : Fin N) (k : Fin C) :
    hop wfS wfG hz hc hr zero nrm srcw dst (hop wfS wfG hz hc hr zero nrm srcw dst h) (ix2 r k)
      = 0 + ∑ e ∈ Finset.univ.filter (fun e : Fin M => (dst (ix1 e)).toInt = (r.val : ℤ)),
          nrm (ix1 e) * (0 + ∑ e' ∈ Finset.univ.filter (fun e' : Fin M => (dst (ix1 e')).toInt = ((srcRow hN srcw e).val : ℤ)),
            nrm (ix1 e') * h (ix2 (srcRow hN srcw e') k)) := by
  rw [hop_apply wfS wfG hz hc hr zero hzero nrm srcw dst _ hN r k]
  refine congrArg (0 + ·) (Finset.sum_congr rfl fun e _ => ?_)
  rw [hop_apply wfS wfG hz hc hr zero hzero nrm srcw dst h hN (srcRow hN srcw e) k]

/-- One hop on a single column `[N, 1]`, weighted by the weight column itself. -/
def hopCol (wfS : ScatterDims.WF ⟨2, ![N, 1]⟩ ⟨2, ![M, 1]⟩ ⟨2, ![M, 1]⟩ [1] [0] [0] 1)
    (wfG : GatherDims.WF ⟨2, ![N, 1]⟩ ⟨2, ![M, 1]⟩ ⟨2, ![M, 1]⟩ [1] [0] [] [0] [] 1 ![1, 1])
    (hz : (⟨0, ![]⟩ : Shape).BroadcastsInDim ⟨2, ![N, 1]⟩ ![])
    (hc : (⟨1, ![M]⟩ : Shape).BroadcastsInDim ⟨2, ![M, 1]⟩ ![0])
    (zero : (⟨0, ![]⟩ : Shape).Idx → EReal) (nrm : (⟨1, ![M]⟩ : Shape).Idx → EReal) (srcw dst : IVec ⟨1, ![M]⟩ 32)
    (y : (⟨2, ![N, 1]⟩ : Shape).Idx → EReal) : (⟨2, ![N, 1]⟩ : Shape).Idx → EReal :=
  Host.scatterAdd (F := Ideal) (φ := .f32) (RowGatherScatter.rowScatter N M 1 wfS)
    (broadcastInDim ⟨2, ![N, 1]⟩ ![] hz zero)
    (broadcastInDim ⟨2, ![M, 1]⟩ ![0] hc dst)
    (mulf (F := Ideal) (φ := .f32) (broadcastInDim ⟨2, ![M, 1]⟩ ![0] hc nrm)
      (Host.gather (RowGatherScatter.rowGather N M 1 wfG) y (broadcastInDim ⟨2, ![M, 1]⟩ ![0] hc srcw)))

/-- ONE COLUMN HOP AT AN INDEX. -/
theorem hopCol_apply (wfS : ScatterDims.WF ⟨2, ![N, 1]⟩ ⟨2, ![M, 1]⟩ ⟨2, ![M, 1]⟩ [1] [0] [0] 1)
    (wfG : GatherDims.WF ⟨2, ![N, 1]⟩ ⟨2, ![M, 1]⟩ ⟨2, ![M, 1]⟩ [1] [0] [] [0] [] 1 ![1, 1])
    (hz : (⟨0, ![]⟩ : Shape).BroadcastsInDim ⟨2, ![N, 1]⟩ ![])
    (hc : (⟨1, ![M]⟩ : Shape).BroadcastsInDim ⟨2, ![M, 1]⟩ ![0])
    (zero : (⟨0, ![]⟩ : Shape).Idx → EReal) (hzero : zero ix0 = 0) (nrm : (⟨1, ![M]⟩ : Shape).Idx → EReal)
    (srcw dst : IVec ⟨1, ![M]⟩ 32) (y : (⟨2, ![N, 1]⟩ : Shape).Idx → EReal) (hN : 0 < N) (r : Fin N) (u : Fin 1) :
    hopCol wfS wfG hz hc zero nrm srcw dst y (ix2 r u)
      = 0 + ∑ e ∈ Finset.univ.filter (fun e : Fin M => (dst (ix1 e)).toInt = (r.val : ℤ)),
          nrm (ix1 e) * y (ix2 (srcRow hN srcw e) u) := by
  unfold hopCol
  rw [scatterAdd_eq, RowGatherScatter.rowScatterAdd_apply]
  have hd : ∀ e : Fin M, broadcastInDim ⟨2, ![M, 1]⟩ ![0] hc dst (ix2 e ⟨0, Nat.one_pos⟩) = dst (ix1 e) :=
    fun e => ColumnLayout.bcast_col_apply hc dst e _
  simp only [hd]
  refine congrArg₂ (· + ·) ?_ (Finset.sum_congr rfl fun e _ => ?_)
  · exact (ColumnLayout.bcast_scalar_apply _ hz zero _).trans hzero
  · rw [mulf_apply, ColumnLayout.bcast_col_apply hc nrm e u,
      RowGatherScatter.rowGather_apply hN wfG y _ e u]
    refine congrArg (fun t => nrm (ix1 e) * y (ix2 t u)) (Fin.ext ?_)
    show min (broadcastInDim ⟨2, ![M, 1]⟩ ![0] hc srcw (ix2 e ⟨0, Nat.one_pos⟩)).toInt.toNat (N - 1) = min (srcw (ix1 e)).toInt.toNat (N - 1)
    rw [ColumnLayout.bcast_col_apply hc srcw e ⟨0, Nat.one_pos⟩]

/-- TWO COLUMN HOPS AT AN INDEX. -/
theorem hopCol_hopCol_apply (wfS : ScatterDims.WF ⟨2, ![N, 1]⟩ ⟨2, ![M, 1]⟩ ⟨2, ![M, 1]⟩ [1] [0] [0] 1)
    (wfG : GatherDims.WF ⟨2, ![N, 1]⟩ ⟨2, ![M, 1]⟩ ⟨2, ![M, 1]⟩ [1] [0] [] [0] [] 1 ![1, 1])
    (hz : (⟨0, ![]⟩ : Shape).BroadcastsInDim ⟨2, ![N, 1]⟩ ![])
    (hc : (⟨1, ![M]⟩ : Shape).BroadcastsInDim ⟨2, ![M, 1]⟩ ![0])
    (zero : (⟨0, ![]⟩ : Shape).Idx → EReal) (hzero : zero ix0 = 0) (nrm : (⟨1, ![M]⟩ : Shape).Idx → EReal)
    (srcw dst : IVec ⟨1, ![M]⟩ 32) (y : (⟨2, ![N, 1]⟩ : Shape).Idx → EReal) (hN : 0 < N) (r : Fin N) (u : Fin 1) :
    hopCol wfS wfG hz hc zero nrm srcw dst (hopCol wfS wfG hz hc zero nrm srcw dst y) (ix2 r u)
      = 0 + ∑ e ∈ Finset.univ.filter (fun e : Fin M => (dst (ix1 e)).toInt = (r.val : ℤ)),
          nrm (ix1 e) * (0 + ∑ e' ∈ Finset.univ.filter (fun e' : Fin M => (dst (ix1 e')).toInt = ((srcRow hN srcw e).val : ℤ)),
            nrm (ix1 e') * y (ix2 (srcRow hN srcw e') u)) := by
  rw [hopCol_apply wfS wfG hz hc zero hzero nrm srcw dst _ hN r u]
  refine congrArg (0 + ·) (Finset.sum_congr rfl fun e _ => ?_)
  rw [hopCol_apply wfS wfG hz hc zero hzero nrm srcw dst y hN (srcRow hN srcw e) u]

end EdgeHop

end
-- ==== Proof.KernelTail.lean ====
/-
  The host side of the kernel's program around its region. Before the region @main builds, from the edge array, the
  source and destination index arrays (each edge list followed by the self loops `0 … 49999`) and the edge weights
  `norm`; after it, it propagates the projected column `y : [50000, 1]` twice along the edges — one hop sends `y` to
  `(A y)[i] = 0 + ∑ over the edges e whose destination is i of norm[e] · y[src[e]]`, a source index read signed,
  wrapped when negative and clamped into range, a destination read signed and dropped when out of range — and adds
  the bias. This module names one hop and the whole tail as functions of the arrays they read, shows that the
  frame run's result buffer holds that tail of what the region and the host prefix leave, and reads one hop at an
  index as the sum above.
-/
import proofs.«100970_j91250875171026_2_alg».proof.Defs
import proofs.«100970_j91250875171026_2_alg».proof.Proof.Gen.KernelIdeal.Frame
import proofs.«100970_j91250875171026_2_alg».proof.Proof.LibEdgeHop
import proofs.«100970_j91250875171026_2_alg».proof.Proof.LibColumnLayout
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- An index array with its negative entries counted from the end (`v < 0 ? v + 50000 : v`). -/
def wrapIdx (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

theorem hN : 0 < 50000 := by decide

/-- The zero the scatters start from. -/
theorem zero_apply : constant (F := Ideal) S_ .f32 0x00000000#32 ix0 = 0 := Ideal.ofBits_zero_f32

/-- One hop of the propagation on a column, as the generic column hop of the kernel's arrays: gather the source
    rows, weigh them, add them into a zero column at the destinations. -/
abbrev hopK (nrm : FVec Ideal S850000 .f32) (srcw dst : IVec S850000 32) (y : FVec Ideal S50000x1 .f32) : FVec Ideal S50000x1 .f32 :=
  EdgeHop.hopCol scatter_S50000x1_S850000x1_S850000x1_1_0_0_1_wf gather_S50000x1_S850000x1_S850000x1_1_0_n_n_0_1_11_wf
    bcast_S_S50000x1 bcast_S850000_S850000x1_0 (constant (F := Ideal) S_ .f32 0x00000000#32) nrm srcw dst y

/-- The lines after the region: two hops (the source indices wrapped), the bias added, the column flattened. -/
def tailK (nrm : FVec Ideal S850000 .f32) (src dst : IVec S850000 32) (y : FVec Ideal S50000x1 .f32) (b : FVec Ideal S1 .f32) :
    FVec Ideal S50000 .f32 :=
  shapeCast S50000 (addf (hopK nrm (wrapIdx src) dst (hopK nrm (wrapIdx src) dst y))
    (broadcastInDim S50000x1 ![0, 1] bcast_S1x1_S50000x1_0_1 (broadcastInDim S1x1 ![1] bcast_S1_S1x1_1 b))) shapeCasts_S50000x1_S50000

/-- The index and weight arrays the host lines before the region leave, named. -/
abbrev srcArr (c : Dev nD) : IVec S850000 32 := V m c main_v3
abbrev dstArr (c : Dev nD) : IVec S850000 32 := V m c main_v6
abbrev nrmArr (c : Dev nD) : FVec Ideal S850000 .f32 := V m c main_v32

/-- THE TAIL AT AN INDEX: two hops of the column and the bias. -/
theorem tailK_apply (nrm : FVec Ideal S850000 .f32) (src dst : IVec S850000 32) (y : FVec Ideal S50000x1 .f32) (b : FVec Ideal S1 .f32)
    (r : Fin 50000) :
    tailK nrm src dst y b (ix1 r)
      = (0 + ∑ e ∈ Finset.univ.filter (fun e : Fin 850000 => (dst (ix1 e)).toInt = (r.val : ℤ)),
          nrm (ix1 e) * (0 + ∑ e' ∈ Finset.univ.filter (fun e' : Fin 850000 => (dst (ix1 e')).toInt = ((EdgeHop.srcRow hN (wrapIdx src) e).val : ℤ)),
            nrm (ix1 e') * y (ix2 (EdgeHop.srcRow hN (wrapIdx src) e') (0 : Fin 1))))
        + b (ix1 (0 : Fin 1)) := by
  unfold tailK
  rw [ColumnLayout.cast_col_flat_apply, addf_apply, ColumnLayout.bcast_one_col_apply]
  exact congrArg (· + b (ix1 (0 : Fin 1)))
    (EdgeHop.hopCol_hopCol_apply scatter_S50000x1_S850000x1_S850000x1_1_0_0_1_wf gather_S50000x1_S850000x1_S850000x1_1_0_n_n_0_1_11_wf
      bcast_S_S50000x1 bcast_S850000_S850000x1_0 (constant (F := Ideal) S_ .f32 0x00000000#32) zero_apply nrm (wrapIdx src) dst y hN r 0)

end Cert.KernelIdeal.Hand

end
-- ==== Proof.KernelTailRun.lean ====
/-
  The kernel's result buffer after the run: the host lines that follow the region, applied to what the region and
  the host lines before it leave — the tail function of the edge weights and indices, of the region's output array
  and of the bias.
-/
import proofs.«100970_j91250875171026_2_alg».proof.Defs
import proofs.«100970_j91250875171026_2_alg».proof.Proof.Gen.KernelIdeal.Frame
import proofs.«100970_j91250875171026_2_alg».proof.Proof.KernelTail
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- THE RESULT BUFFER after the run's last lines: the tail of the weights and indices the prefix left, of the
    region's output array, and of the bias. -/
theorem tail_eq (c : Dev nD) :
    Pipeline.afterTail₀ cfgs (dats m) 0 (V0 m) [hostOps1] c main_v61
      = tailK (nrmArr m c) (srcArr m c) (dstArr m c) ((dats m 0 c).arrAt 2 cfg0.N) (V m c main_arg3) := by
  unfold Pipeline.afterTail₀
  show StableHlo.after hostOps1 _ (Proc.devRef .tc main_v61) = _
  after_results_simp
  rw [Pipeline.withArrays_arr spec0 launch0.win.arr_inj c _ _ 2,
    Pipeline.withArrays_of_ne _ c (V0 m c) _ main_v32 (by decide : ∀ w, Pipeline.arrRef spec0 w ≠ main_v32),
    Pipeline.withArrays_of_ne _ c (V0 m c) _ main_v3 (by decide : ∀ w, Pipeline.arrRef spec0 w ≠ main_v3),
    Pipeline.withArrays_of_ne _ c (V0 m c) _ main_v6 (by decide : ∀ w, Pipeline.arrRef spec0 w ≠ main_v6),
    Pipeline.withArrays_of_ne _ c (V0 m c) _ main_arg3 (by decide : ∀ w, Pipeline.arrRef spec0 w ≠ main_arg3)]
  rfl

end Cert.KernelIdeal.Hand

end
-- ==== Proof.KernelPrefix.lean ====
/-
  What the kernel's host lines before the region leave: the source and destination index arrays (each edge list
  followed by the self loops) and the edge weights `norm[e] = dis[src e] · dis[dst e]`, `dis = 1/√deg` where the degree
  is positive and `0` elsewhere. The lines fall into five stretches (two of them the two `where` selections); each
  stretch's results are read as functions of whatever the earlier lines left, and chained. The weights are then the
  same function of the edge array by which the reference computes them, lacking only the reference's factor `1`.
-/
import proofs.«100970_j91250875171026_2_alg».proof.Defs
import proofs.«100970_j91250875171026_2_alg».proof.Proof.Gen.KernelIdeal.Frame
import proofs.«100970_j91250875171026_2_alg».proof.Proof.RefReadP
import proofs.«100970_j91250875171026_2_alg».proof.Proof.KernelTail
import Idealize.ShloMosaic.Lib.StableHlo.Run

set_option maxRecDepth 8192

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ)

/-- The source indices the region's neighbours find are the reference's function of the edge array. -/
theorem V_src (c : Dev nD) :
    srcArr m c = Cert.ReferenceIdeal.ReadP.val_main_v3 (F := Ideal) (m ((c : Thread nD τ).loc main_arg1)) := by
  dsimp only [srcArr, V, V0]
  simp only [hostOps0, hostOps0_1, hostOps0_2, hostOps0_3, hostOps0_4, List.flatten_cons, List.flatten_nil, List.append_nil,
    List.cons_append, List.nil_append]
  after_results_simp <;> rfl

/-- The destination indices likewise. -/
theorem V_dst (c : Dev nD) :
    dstArr m c = Cert.ReferenceIdeal.ReadP.val_main_v6 (F := Ideal) (m ((c : Thread nD τ).loc main_arg1)) := by
  dsimp only [dstArr, V, V0]
  simp only [hostOps0, hostOps0_1, hostOps0_2, hostOps0_3, hostOps0_4, List.flatten_cons, List.flatten_nil, List.append_nil,
    List.cons_append, List.nil_append]
  after_results_simp <;> rfl

/-- Wrapping the source indices is the reference's wrapped-source stage. -/
theorem wrap_src (x1 : IVec S2x800000 32) :
    wrapIdx (Cert.ReferenceIdeal.ReadP.val_main_v3 (F := Ideal) x1) = Cert.ReferenceIdeal.ReadP.val_main_v39 (F := Ideal) x1 := rfl

/-- The source and destination index arrays: each edge list followed by the self loops. -/
def srcK (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0
def dstK (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- A node's degree: ones added into zeros at the destinations. -/
def degK (x1 : IVec S2x800000 32) : FVec Ideal S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (dstK x1)) (broadcastInDim S850000 ![] bcast_S_S850000 (constant S_ .f32 0x3F800000#32))

/-- Where the degree is positive. -/
def posK (x1 : IVec S2x800000 32) : IVec S50000 1 :=
  cmpf .ogt (degK x1) (broadcastInDim S50000 ![] bcast_S_S50000 (constant S_ .f32 0x00000000#32))

/-- `1/√deg` where the degree is positive, `0` elsewhere. -/
def disK (x1 : IVec S2x800000 32) : FVec Ideal S50000 .f32 :=
  select (posK x1) (Host.rsqrt (select (posK x1) (degK x1) (broadcastInDim S50000 ![] bcast_S_S50000 (id (constant S_ .f32 0x3F800000#32)))))
    (broadcastInDim S50000 ![] bcast_S_S50000 (id (constant S_ .f32 0x00000000#32)))

/-- The edge weights: `dis` at the (wrapped, clamped) source times `dis` at the destination. -/
def nrmK (x1 : IVec S2x800000 32) : FVec Ideal S850000 .f32 :=
  mulf (Host.gather gather_S50000_S850000x1_S850000_n_0_n_n_0_1_1 (disK x1) (broadcastInDim S850000x1 ![0] bcast_S850000_S850000x1_0 (wrapIdx (srcK x1))))
    (Host.gather gather_S50000_S850000x1_S850000_n_0_n_n_0_1_1 (disK x1) (broadcastInDim S850000x1 ![0] bcast_S850000_S850000x1_0 (wrapIdx (dstK x1))))

/-- The kernel's weights are the reference's two gathered `dis` factors multiplied (its factor `1` apart). -/
theorem nrmK_eq (x1 : IVec S2x800000 32) :
    nrmK x1 = mulf (F := Ideal) (s := S850000) (φ := .f32) (Cert.ReferenceIdeal.ReadP.val_main_v24 (F := Ideal) x1)
      (Cert.ReferenceIdeal.ReadP.val_main_v32 (F := Ideal) x1) := rfl

/-! ## The five stretches, each over whatever the earlier lines left -/

/-- Running one list of lines after another. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem S0_v3 (c : Dev nD) :
    StableHlo.after (hostOps0 (F := Ideal)) (fun b => m (c, b)) (Proc.devRef .tc main_v3) = srcK (m ((c : Thread nD τ).loc main_arg1)) := by
  after_results_simp <;> rfl

theorem S0_v6 (c : Dev nD) :
    StableHlo.after (hostOps0 (F := Ideal)) (fun b => m (c, b)) (Proc.devRef .tc main_v6) = dstK (m ((c : Thread nD τ).loc main_arg1)) := by
  after_results_simp <;> rfl

theorem S0_v10 (c : Dev nD) :
    StableHlo.after (hostOps0 (F := Ideal)) (fun b => m (c, b)) (Proc.devRef .tc main_v10) = degK (m ((c : Thread nD τ).loc main_arg1)) := by
  after_results_simp <;> rfl

theorem S0_v12 (c : Dev nD) :
    StableHlo.after (hostOps0 (F := Ideal)) (fun b => m (c, b)) (Proc.devRef .tc main_v12) = posK (m ((c : Thread nD τ).loc main_arg1)) := by
  after_results_simp <;> rfl

theorem S0_v14 (c : Dev nD) :
    StableHlo.after (hostOps0 (F := Ideal)) (fun b => m (c, b)) (Proc.devRef .tc main_v14) = posK (m ((c : Thread nD τ).loc main_arg1)) := by
  after_results_simp <;> rfl

theorem S0_cst3 (c : Dev nD) :
    StableHlo.after (hostOps0 (F := Ideal)) (fun b => m (c, b)) (Proc.devRef .tc main_cst_3) = constant (F := Ideal) S_ .f32 0x3F800000#32 := by
  after_results_simp <;> rfl

theorem S1_v15 (W : Valuation τ sig (Elt Ideal)) :
    StableHlo.after (hostOps0_1 (F := Ideal)) W (Proc.devRef .tc main_v15) = select (W (Proc.devRef .tc main_v14)) (W (Proc.devRef .tc main_v10)) (broadcastInDim S50000 ![] bcast_S_S50000 (id (W (Proc.devRef .tc main_cst_3)))) := by
  after_results_simp <;> rfl

theorem S1_v12 (W : Valuation τ sig (Elt Ideal)) :
    StableHlo.after (hostOps0_1 (F := Ideal)) W (Proc.devRef .tc main_v12) = W (Proc.devRef .tc main_v12) := by
  after_results_simp <;> rfl

theorem S1_v3 (W : Valuation τ sig (Elt Ideal)) :
    StableHlo.after (hostOps0_1 (F := Ideal)) W (Proc.devRef .tc main_v3) = W (Proc.devRef .tc main_v3) := by
  after_results_simp <;> rfl

theorem S1_v6 (W : Valuation τ sig (Elt Ideal)) :
    StableHlo.after (hostOps0_1 (F := Ideal)) W (Proc.devRef .tc main_v6) = W (Proc.devRef .tc main_v6) := by
  after_results_simp <;> rfl

theorem S2_v16 (W : Valuation τ sig (Elt Ideal)) :
    StableHlo.after (hostOps0_2 (F := Ideal)) W (Proc.devRef .tc main_v16) = Host.rsqrt (F := Ideal) (s := S50000) (φ := .f32) (W (Proc.devRef .tc main_v15)) := by
  after_results_simp <;> rfl

theorem S2_cst4 (W : Valuation τ sig (Elt Ideal)) :
    StableHlo.after (hostOps0_2 (F := Ideal)) W (Proc.devRef .tc main_cst_4) = constant (F := Ideal) S_ .f32 0x00000000#32 := by
  after_results_simp <;> rfl

theorem S2_v12 (W : Valuation τ sig (Elt Ideal)) :
    StableHlo.after (hostOps0_2 (F := Ideal)) W (Proc.devRef .tc main_v12) = W (Proc.devRef .tc main_v12) := by
  after_results_simp <;> rfl

theorem S2_v3 (W : Valuation τ sig (Elt Ideal)) :
    StableHlo.after (hostOps0_2 (F := Ideal)) W (Proc.devRef .tc main_v3) = W (Proc.devRef .tc main_v3) := by
  after_results_simp <;> rfl

theorem S2_v6 (W : Valuation τ sig (Elt Ideal)) :
    StableHlo.after (hostOps0_2 (F := Ideal)) W (Proc.devRef .tc main_v6) = W (Proc.devRef .tc main_v6) := by
  after_results_simp <;> rfl

theorem S3_v17 (W : Valuation τ sig (Elt Ideal)) :
    StableHlo.after (hostOps0_3 (F := Ideal)) W (Proc.devRef .tc main_v17) = select (W (Proc.devRef .tc main_v12)) (W (Proc.devRef .tc main_v16)) (broadcastInDim S50000 ![] bcast_S_S50000 (id (W (Proc.devRef .tc main_cst_4)))) := by
  after_results_simp <;> rfl

theorem S3_v3 (W : Valuation τ sig (Elt Ideal)) :
    StableHlo.after (hostOps0_3 (F := Ideal)) W (Proc.devRef .tc main_v3) = W (Proc.devRef .tc main_v3) := by
  after_results_simp <;> rfl

theorem S3_v6 (W : Valuation τ sig (Elt Ideal)) :
    StableHlo.after (hostOps0_3 (F := Ideal)) W (Proc.devRef .tc main_v6) = W (Proc.devRef .tc main_v6) := by
  after_results_simp <;> rfl

theorem S4_v32 (W : Valuation τ sig (Elt Ideal)) :
    StableHlo.after (hostOps0_4 (F := Ideal)) W (Proc.devRef .tc main_v32) = mulf (F := Ideal) (s := S850000) (φ := .f32)
      (Host.gather gather_S50000_S850000x1_S850000_n_0_n_n_0_1_1 (W (Proc.devRef .tc main_v17)) (broadcastInDim S850000x1 ![0] bcast_S850000_S850000x1_0 (wrapIdx (W (Proc.devRef .tc main_v3)))))
      (Host.gather gather_S50000_S850000x1_S850000_n_0_n_n_0_1_1 (W (Proc.devRef .tc main_v17)) (broadcastInDim S850000x1 ![0] bcast_S850000_S850000x1_0 (wrapIdx (W (Proc.devRef .tc main_v6))))) := by
  after_results_simp <;> rfl

/-- THE KERNEL'S EDGE WEIGHTS, as the region's neighbours find them. -/
theorem V_nrmK (c : Dev nD) : nrmArr m c = nrmK (m ((c : Thread nD τ).loc main_arg1)) := by
  dsimp only [nrmArr, V, V0]
  simp only [List.flatten_cons, List.flatten_nil, List.append_nil, after_append]
  rw [S4_v32, S3_v17, S3_v3, S3_v6, S2_v16, S2_cst4, S2_v12, S2_v3, S2_v6, S1_v15, S1_v12, S1_v3, S1_v6,
    S0_v14 m c, S0_v10 m c, S0_cst3 m c, S0_v12 m c, S0_v3 m c, S0_v6 m c]
  rfl

/-- The kernel's edge weights in the reference's terms. -/
theorem V_nrm (c : Dev nD) :
    nrmArr m c = mulf (F := Ideal) (s := S850000) (φ := .f32) (Cert.ReferenceIdeal.ReadP.val_main_v24 (F := Ideal) (m ((c : Thread nD τ).loc main_arg1)))
      (Cert.ReferenceIdeal.ReadP.val_main_v32 (F := Ideal) (m ((c : Thread nD τ).loc main_arg1))) :=
  (V_nrmK m c).trans (nrmK_eq _)

end Cert.KernelIdeal.Hand

end
-- ==== Proof.RefValue.lean ====
/-
  The reference program read at an index. It propagates the whole feature matrix `x : [50000, 128]` twice along the
  edges, column by column — one hop sends `h` to `(A h)[i, k] = 0 + ∑ over the edges e whose destination is i of
  norm[e] · h[src[e], k]` —, then contracts the 128 columns against the weight row and adds the bias. This module
  identifies the reference's two scatter stages with the generic hop (by unfolding definitions only), and reads the
  result at row `r`: `(∑ₖ (A (A x))[r, k] · W[0, k]) + b[0]`.
-/
import proofs.«100970_j91250875171026_2_alg».proof.Defs
import proofs.«100970_j91250875171026_2_alg».proof.Proof.RefReadP
import proofs.«100970_j91250875171026_2_alg».proof.Proof.LibEdgeHop
import proofs.«100970_j91250875171026_2_alg».proof.Proof.LibColumnLayout
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.ReadP

theorem hN : 0 < 50000 := by decide

/-- The zero the scatters start from. -/
theorem zero_apply : constant (F := Ideal) S_ .f32 0x00000000#32 ix0 = 0 := Ideal.ofBits_zero_f32

/-- One hop of the reference, as the generic hop of its arrays. -/
abbrev hopR (nrm : FVec Ideal S850000 .f32) (srcw dst : IVec S850000 32) (h : FVec Ideal S50000x128 .f32) : FVec Ideal S50000x128 .f32 :=
  EdgeHop.hop scatter_S50000x128_S850000x1_S850000x128_1_0_0_1_wf gather_S50000x128_S850000x1_S850000x128_1_0_n_n_0_1_1128_wf
    bcast_S_S50000x128 bcast_S850000_S850000x1_0 bcast_S850000x1_S850000x128_0_1
    (constant (F := Ideal) S_ .f32 0x00000000#32) nrm srcw dst h

/-- The reference's first scatter stage is one hop of the feature matrix … -/
theorem v46_eq (x0 : FVec Ideal S50000x128 .f32) (x1 : IVec S2x800000 32) :
    val_main_v46 (F := Ideal) x0 x1 = hopR (val_main_v33 (F := Ideal) x1) (val_main_v39 (F := Ideal) x1) (val_main_v6 (F := Ideal) x1) x0 := rfl

/-- … and its second one hop of the first (the wrapped source indices are computed twice, by the same operations). -/
theorem v59_eq (x0 : FVec Ideal S50000x128 .f32) (x1 : IVec S2x800000 32) :
    val_main_v59 (F := Ideal) x0 x1
      = hopR (val_main_v33 (F := Ideal) x1) (val_main_v39 (F := Ideal) x1) (val_main_v6 (F := Ideal) x1)
          (hopR (val_main_v33 (F := Ideal) x1) (val_main_v39 (F := Ideal) x1) (val_main_v6 (F := Ideal) x1) x0) := rfl

/-- THE REFERENCE'S RESULT AT ROW `r`: the two hops of the feature matrix, contracted against the weight row, plus the bias. -/
theorem ref_out (x0 : FVec Ideal S50000x128 .f32) (x1 : IVec S2x800000 32) (x2 : FVec Ideal S1x128 .f32) (x3 : FVec Ideal S1 .f32)
    (r : Fin 50000) :
    val_main_v65 (F := Ideal) x0 x1 x2 x3 (ix1 r)
      = (∑ k : Fin 128,
          (0 + ∑ e ∈ Finset.univ.filter (fun e : Fin 850000 => (val_main_v6 (F := Ideal) x1 (ix1 e)).toInt = (r.val : ℤ)),
            val_main_v33 (F := Ideal) x1 (ix1 e)
              * (0 + ∑ e' ∈ Finset.univ.filter (fun e' : Fin 850000 => (val_main_v6 (F := Ideal) x1 (ix1 e')).toInt = ((EdgeHop.srcRow hN (val_main_v39 (F := Ideal) x1) e).val : ℤ)),
                  val_main_v33 (F := Ideal) x1 (ix1 e') * x0 (ix2 (EdgeHop.srcRow hN (val_main_v39 (F := Ideal) x1) e') k)))
            * x2 (ix2 (0 : Fin 1) k))
        + x3 (ix1 (0 : Fin 1)) := by
  unfold val_main_v65
  rw [ColumnLayout.cast_col_flat_apply, val_main_v64_apply, Ideal.addf_def]
  refine congrArg₂ (· + ·) ?_ ?_
  · rw [val_main_v61_apply]
    refine Finset.sum_congr rfl fun k _ => ?_
    have hl : lidx_main_v61 (ix2 r (0 : Fin 1)) k = ix2 r k := by
      funext a
      match a with
      | ⟨0, _⟩ => rfl
      | ⟨1, _⟩ => rfl
    have hr : ridx_main_v61 (ix2 r (0 : Fin 1)) k = ix2 k (0 : Fin 1) := by
      funext a
      match a with
      | ⟨0, _⟩ => rfl
      | ⟨1, _⟩ => rfl
    rw [hl, hr, v59_eq]
    refine congrArg₂ (· * ·)
      (EdgeHop.hop_hop_apply scatter_S50000x128_S850000x1_S850000x128_1_0_0_1_wf gather_S50000x128_S850000x1_S850000x128_1_0_n_n_0_1_1128_wf
        bcast_S_S50000x128 bcast_S850000_S850000x1_0 bcast_S850000x1_S850000x128_0_1 (constant (F := Ideal) S_ .f32 0x00000000#32) zero_apply
        (val_main_v33 (F := Ideal) x1) (val_main_v39 (F := Ideal) x1) (val_main_v6 (F := Ideal) x1) x0 hN r k) ?_
    have h60 : idx_main_v60 (ix2 k (0 : Fin 1)) = ix2 (0 : Fin 1) k := by
      funext a
      match a with
      | ⟨0, _⟩ => rfl
      | ⟨1, _⟩ => rfl
    rw [val_main_v60_apply, h60]
  · unfold val_main_v63 val_main_v62
    exact ColumnLayout.bcast_one_col_apply bcast_S1_S1x1_1 bcast_S1x1_S50000x1_0_1 x3 r 0

end Cert.ReferenceIdeal.Hand

end
-- ==== Proof.NormFinite.lean ====
/-
  The edge weights. Both programs compute, from the destination indices, each node's degree `deg[i] = 0 + ∑ 1` over
  the edges landing on `i` (a natural number), then `dis[i] = 1/√deg[i]` where `deg[i] > 0` and `0` elsewhere, and
  the weight of edge `e` as `dis[src e] · dis[dst e]` (the reference with a factor `1` in between). Whatever the
  integer indices are, every `dis[i]`, and so every weight, is a REAL number: the reciprocal square root is taken
  of a positive real only. That is what lets the propagation distribute over sums on the extended reals.
-/
import proofs.«100970_j91250875171026_2_alg».proof.Defs
import proofs.«100970_j91250875171026_2_alg».proof.Proof.RefReadP
import proofs.«100970_j91250875171026_2_alg».proof.Proof.LibEdgeHop
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.Norm

open Cert.ReferenceIdeal Cert.ReferenceIdeal.ReadP

/-- The float pattern `0x3F800000` denotes the real `1`. -/
theorem ofBits_one : Ideal.ofBits .f32 0x3F800000#32 = 1 := by
  simp [Ideal.ofBits, Ideal.ieee, -EReal.coe_mul]; norm_num

theorem ones_apply (j : S850000.Idx) : val_main_v7 (F := Ideal) j = 1 := by
  rw [val_main_v7_apply, val_main_cst_apply]; exact ofBits_one

theorem zeros_apply (i : S50000.Idx) : val_main_v8 (F := Ideal) i = 0 := by
  rw [val_main_v8_apply, val_main_cst_0_apply]; exact Ideal.ofBits_zero_f32

/-- A node's degree is a natural number. -/
theorem deg_nat (x1 : IVec S2x800000 32) (i : S50000.Idx) : ∃ n : ℕ, val_main_v10 (F := Ideal) x1 i = ((n : ℝ) : EReal) := by
  unfold val_main_v10
  exact EdgeHop.scatterAdd_ones_nat _ _ _ _ i (zeros_apply i) ones_apply

/-- The reciprocal square root of a positive real is a real. -/
theorem rsqrt_pos_real (r : ℝ) (hr : 0 < r) : Ideal.rsqrt ((r : ℝ) : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

theorem cmp_ogt_pos (n : ℕ) (hpos : 0 < n) : FloatOps.cmpf (F := Ideal) (φ := .f32) .ogt (((n : ℝ) : EReal)) 0 = 1#1 := by
  show Ideal.cmp .ogt (((n : ℝ) : EReal)) 0 = 1#1
  unfold Ideal.cmp
  have hr : (0 : EReal) < ((n : ℝ) : EReal) := by exact_mod_cast hpos
  simp only [decide_eq_true hr]
  rfl

theorem cmp_ogt_zero : FloatOps.cmpf (F := Ideal) (φ := .f32) .ogt ((((0 : ℕ) : ℝ) : EReal)) 0 = 0#1 := by
  show Ideal.cmp .ogt ((((0 : ℕ) : ℝ) : EReal)) 0 = 0#1
  unfold Ideal.cmp
  have hr : ¬ ((0 : EReal) < (((0 : ℕ) : ℝ) : EReal)) := by simp
  simp only [decide_eq_false hr]
  rfl

/-- Every `dis[i]` is a real: `1/√deg` of a positive degree, or `0`. -/
theorem dis_real (x1 : IVec S2x800000 32) (i : S50000.Idx) : ∃ r : ℝ, val_main_v17 (F := Ideal) x1 i = (r : EReal) := by
  obtain ⟨n, hn⟩ := deg_nat x1 i
  have h11 : val_main_v11 (F := Ideal) i = 0 := by rw [val_main_v11_apply, val_main_cst_1_apply]; exact Ideal.ofBits_zero_f32
  have h13 : val_main_v13 (F := Ideal) i = 0 := by rw [val_main_v13_apply, val_main_cst_2_apply]; exact Ideal.ofBits_zero_f32
  rw [val_main_v17_apply, val_main_v12_apply, hn, h11]
  by_cases hpos : 0 < n
  · have hr : (0 : ℝ) < (n : ℝ) := by exact_mod_cast hpos
    rw [cmp_ogt_pos n hpos, select_one, val_main_v16_apply, val_main_v15_apply, val_main_v14_apply, hn, h13,
      cmp_ogt_pos n hpos, select_one, Ideal.hostUnary_rsqrt_def]
    exact ⟨(Real.sqrt n)⁻¹, rsqrt_pos_real _ hr⟩
  · have h0 : n = 0 := by omega
    subst h0
    rw [cmp_ogt_zero, select_zero, val_main_call1_v1_apply, val_main_call1_v0_apply, val_main_cst_4_apply]
    exact ⟨0, Ideal.ofBits_zero_f32⟩

/-- A gathered `dis` entry is a real, whichever entry the index picks. -/
theorem gather_dis_real (x1 : IVec S2x800000 32) (idx : IVec S850000x1 32) (j : S850000.Idx) :
    ∃ r : ℝ, Host.gather gather_S50000_S850000x1_S850000_n_0_n_n_0_1_1 (val_main_v17 (F := Ideal) x1) idx j = (r : EReal) := by
  exact EdgeHop.gather_real _ _ (dis_real x1) idx j

/-- Every edge weight is a real. -/
theorem nrm_real (x1 : IVec S2x800000 32) (e : Fin 850000) : ∃ r : ℝ, val_main_v33 (F := Ideal) x1 (ix1 e) = (r : EReal) := by
  obtain ⟨a, ha⟩ := gather_dis_real x1 (val_main_v23 (F := Ideal) x1) (ix1 e)
  obtain ⟨b, hb⟩ := gather_dis_real x1 (val_main_v31 (F := Ideal) x1) (ix1 e)
  refine ⟨a * b, ?_⟩
  rw [val_main_v33_apply, val_main_v25_apply, ones_apply]
  unfold val_main_v24 val_main_v32
  rw [ha, hb, Ideal.mulf_def, Ideal.mulf_def, mul_one, EReal.coe_mul]

/-- The weights without the factor `1` are the same weights. -/
theorem nrm_eq (x1 : IVec S2x800000 32) :
    mulf (F := Ideal) (s := S850000) (φ := .f32) (val_main_v24 (F := Ideal) x1) (val_main_v32 (F := Ideal) x1) = val_main_v33 (F := Ideal) x1 := by
  funext i
  rw [val_main_v33_apply, val_main_v25_apply, ones_apply, mulf_apply, Ideal.mulf_def, Ideal.mulf_def, mul_one]

end Cert.ReferenceIdeal.Norm

end
-- ==== Proof.PreFinite.lean ====
/-
  From the precondition to real numbers. The precondition says, of each float argument array, that every entry's
  absolute value is below `+∞`; on the extended reals that makes every entry of the feature matrix and of the
  weight row a real number (the only extended reals whose absolute value is `+∞` are `±∞`).
-/
import proofs.«100970_j91250875171026_2_alg».proof.Defs
import proofs.«100970_j91250875171026_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

open Idealize.ShloMosaic Idealize.ShloMosaic.ValueIdx

namespace Cert.Pre_finite_inputs.Hand

open Cert.Pre_finite_inputs

/-- The float pattern `0x7F800000` denotes `+∞`. -/
theorem ofBits_inf : Ideal.ofBits .f32 0x7F800000#32 = ⊤ := by
  simp [Ideal.ofBits, Ideal.ieee]

/-- An extended real whose absolute value is below `+∞` is a real. -/
theorem real_of_abs_lt_top (x : EReal) (h : Ideal.cmp .olt (max x (-x)) ⊤ = 1#1) : ∃ r : ℝ, x = (r : EReal) := by
  induction x using EReal.rec
  · exfalso; simp [Ideal.cmp] at h
  · exact ⟨_, rfl⟩
  · exfalso; simp [Ideal.cmp] at h

instance : Subsingleton S_.Idx := ⟨fun a b => funext fun d => d.elim0⟩

/-- Under the precondition every entry of the feature matrix and of the weight row is a real number. -/
theorem real_of_pre (a0 : FVec Ideal S50000x128 .f32) (a1 : IVec S2x800000 32) (a2 : FVec Ideal S1x128 .f32) (a3 : FVec Ideal S1 .f32)
    (h : fn (F := Ideal) a0 a1 a2 a3 = fun _ => 1#1) :
    (∀ i, ∃ r : ℝ, a0 i = (r : EReal)) ∧ (∀ i, ∃ r : ℝ, a2 i = (r : EReal)) := by
  have h1 := congrFun h ix0
  dsimp only [fn] at h1
  obtain ⟨h12, -⟩ := IntOp.andi_eq_one.1 h1
  obtain ⟨hx, hw⟩ := IntOp.andi_eq_one.1 h12
  refine ⟨fun i => ?_, fun i => ?_⟩
  · have e := Host.reduce_andi_all _ _ _ _ _ hx i
    refine real_of_abs_lt_top (a0 i) ?_
    rw [← ofBits_inf]
    exact e
  · have e := Host.reduce_andi_all _ _ _ _ _ hw i
    refine real_of_abs_lt_top (a2 i) ?_
    rw [← ofBits_inf]
    exact e

end Cert.Pre_finite_inputs.Hand

end
-- ==== Proof.LibTwoHopLinear.lean ====
import Mathlib.Data.EReal.Operations
import Mathlib.Algebra.BigOperators.Ring.Finset
import Mathlib.Algebra.BigOperators.Group.Finset.Sigma
import Mathlib.Tactic.Ring

/-!
# Linearity of a two-hop weighted graph aggregation over the extended reals

A weighted aggregation `(A f) i = ∑ over edges e landing on i, n e * f (g e)` is linear.
Hence aggregating twice the projection of a feature matrix onto a weight vector equals
projecting the twice-aggregated matrix: `A (A (x · w)) = (A (A x)) · w`.

The values live in `EReal`, where multiplication does not distribute over addition at the
infinities. The identity nevertheless holds because every coefficient is (the image of) a real
number: both sides are then images of real numbers and the identity is the real one.
-/

namespace TwoHopLinear
open Finset

/-- The image in the extended reals of a finite sum of real numbers is the extended-real sum of
the images: the embedding `ℝ → EReal` preserves `0` and `+`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- The real-number form of the two-hop identity: with `F j` the set of edges landing on `j`,
`∑_{e ∈ F i} n e * ∑_{e' ∈ F (g e)} n e' * ∑_d x (g e') d * w d`
`= ∑_d (∑_{e ∈ F i} n e * ∑_{e' ∈ F (g e)} n e' * x (g e') d) * w d`.
Distribute all products over the sums, then move the sum over `d` outward past the sum over
`e'` (whose index set depends on `e`) and then past the sum over `e`. -/
theorem two_hop_project_real {E V D : Type*} [Fintype D]
    (F : V → Finset E) (g : E → V) (n : E → ℝ) (x : V → D → ℝ) (w : D → ℝ) (i : V) :
    ∑ e ∈ F i, n e * ∑ e' ∈ F (g e), n e' * ∑ d, x (g e') d * w d
    = ∑ d, (∑ e ∈ F i, n e * ∑ e' ∈ F (g e), n e' * x (g e') d) * w d := by
  simp only [Finset.mul_sum, Finset.sum_mul]
  symm
  rw [Finset.sum_comm]
  refine Finset.sum_congr rfl fun e _ => ?_
  rw [Finset.sum_comm]
  refine Finset.sum_congr rfl fun e' _ => Finset.sum_congr rfl fun d _ => ?_
  ring

/-- Two-hop aggregation commutes with projection onto a weight vector, in the extended reals,
when the edge weights `n`, the features `x` and the weight vector `w` are all real-valued:
`A (A (x · w)) = (A (A x)) · w` where `(A f) i = 0 + ∑_{e : hit e i} n e * f (g e)`.
Every quantity is the image of a real number, so both sides are images of reals and the
identity reduces to the real one, where distributivity is available. -/
theorem two_hop_project {E V D : Type*} [Fintype E] [Fintype V] [Fintype D]
    (hit : E → V → Prop) [∀ e i, Decidable (hit e i)] (g : E → V)
    (n : E → EReal) (x : V → D → EReal) (w : D → EReal)
    (hn : ∀ e, ∃ r : ℝ, n e = (r : EReal)) (hx : ∀ v d, ∃ r : ℝ, x v d = (r : EReal))
    (hw : ∀ d, ∃ r : ℝ, w d = (r : EReal))
    (i : V) :
    (0 : EReal) + ∑ e ∈ univ.filter (fun e => hit e i), n e * ((0 : EReal) + ∑ e' ∈ univ.filter (fun e' => hit e' (g e)), n e' * ∑ d, x (g e') d * w d)
    = ∑ d, ((0 : EReal) + ∑ e ∈ univ.filter (fun e => hit e i), n e * ((0 : EReal) + ∑ e' ∈ univ.filter (fun e' => hit e' (g e)), n e' * x (g e') d)) * w d := by
  choose nr hnr using hn
  choose xr hxr using hx
  choose wr hwr using hw
  obtain rfl : n = fun e => (nr e : EReal) := funext hnr
  obtain rfl : x = fun v d => (xr v d : EReal) := funext fun v => funext (hxr v)
  obtain rfl : w = fun d => (wr d : EReal) := funext hwr
  simp only [zero_add, ← EReal.coe_mul, ← coe_sum]
  rw [EReal.coe_eq_coe_iff]
  exact two_hop_project_real (fun j => univ.filter (fun e => hit e j)) g nr xr wr i

end TwoHopLinear
-- ==== Proof.Bridge.lean ====
/-
  The two results are one function. The kernel projects the feature matrix onto the weight row first and then
  propagates the resulting column twice along the edges; the reference propagates the whole matrix twice and
  projects last. With `(A f)[i] = 0 + ∑ over the edges e landing on i of norm[e] · f[src e]`, the claim is
  `A (A (x·w)) + b = (A (A x))·w + b`: the propagation is linear, and on the extended reals that needs every weight,
  every feature and every entry of the weight row to be a real number — the weights are (whatever the indices),
  the features and the weight row by the precondition. The bias is added last on both sides and plays no part.
-/
import proofs.«100970_j91250875171026_2_alg».proof.Defs
import proofs.«100970_j91250875171026_2_alg».proof.Proof.Gen.KernelIdeal.Frame
import proofs.«100970_j91250875171026_2_alg».proof.Proof.RefReadP
import proofs.«100970_j91250875171026_2_alg».proof.Proof.KernelRegion
import proofs.«100970_j91250875171026_2_alg».proof.Proof.KernelTail
import proofs.«100970_j91250875171026_2_alg».proof.Proof.KernelTailRun
import proofs.«100970_j91250875171026_2_alg».proof.Proof.KernelPrefix
import proofs.«100970_j91250875171026_2_alg».proof.Proof.RefValue
import proofs.«100970_j91250875171026_2_alg».proof.Proof.NormFinite
import proofs.«100970_j91250875171026_2_alg».proof.Proof.PreFinite
import proofs.«100970_j91250875171026_2_alg».proof.Proof.LibTwoHopLinear

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The kernel's result buffer after the run. -/
abbrev result (c : Dev nD) : Buf (Elt Ideal) ((c : Thread nD τ).loc main_v61) :=
  Pipeline.afterTail₀ cfgs (dats m) 0 (V0 m) [hostOps1] c main_v61

/-- The frame run, with the result buffer named and the arguments unchanged. -/
theorem run : θ_run defs (onTc (τ := τ) (main (F := Ideal))) ⟨m, fun _ => 0, ρ⟩ fun r => ∀ c : Dev nD,
      r.2.mem ((c : Thread nD τ).loc main_v61) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).2 main_v61 (Pipeline.mem_restRefs_of main_v61 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

/-- The projection at a row. -/
theorem proj_apply (x : S50000x128.Idx → EReal) (w : S1x128.Idx → EReal) (v : Fin 50000) (u : Fin 1) :
    proj x w (ix2 v u) = ∑ k : Fin 128, x (ix2 v k) * w (ix2 (0 : Fin 1) k) := rfl

/-- THE BRIDGE: under the precondition the kernel's result buffer holds the reference's result, as functions of the
    same argument arrays. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    result m c = Cert.ReferenceIdeal.ReadP.val_main_v65 (F := Ideal) (m ((c : Thread nD τ).loc main_arg0))
      (m ((c : Thread nD τ).loc main_arg1)) (m ((c : Thread nD τ).loc main_arg2)) (m ((c : Thread nD τ).loc main_arg3)) := by
  obtain ⟨hx, hw⟩ := Cert.Pre_finite_inputs.Hand.real_of_pre _ _ _ _ hpre
  funext i
  obtain ⟨r, rfl⟩ : ∃ r : Fin 50000, i = ix1 r := ⟨i 0, eq_ix1 i⟩
  rw [Cert.ReferenceIdeal.Hand.ref_out]
  dsimp only [result]
  rw [tail_eq m c, tailK_apply, final m c, V_main_arg0 m c, V_main_arg2 m c, V_main_arg3 m c, V_nrm m c, V_src m c, V_dst m c, wrap_src,
    Cert.ReferenceIdeal.Norm.nrm_eq]
  refine congrArg (· + (m ((c : Thread nD τ).loc main_arg3) : S1.Idx → EReal) (ix1 (0 : Fin 1))) ?_
  simp only [proj_apply]
  have key := TwoHopLinear.two_hop_project
    (hit := fun (e : Fin 850000) (i : Fin 50000) =>
      (Cert.ReferenceIdeal.ReadP.val_main_v6 (F := Ideal) (m ((c : Thread nD τ).loc main_arg1)) (ix1 e)).toInt = (i.val : ℤ))
    (g := fun e => EdgeHop.srcRow hN (Cert.ReferenceIdeal.ReadP.val_main_v39 (F := Ideal) (m ((c : Thread nD τ).loc main_arg1))) e)
    (n := fun e => Cert.ReferenceIdeal.ReadP.val_main_v33 (F := Ideal) (m ((c : Thread nD τ).loc main_arg1)) (ix1 e))
    (x := fun v d => (m ((c : Thread nD τ).loc main_arg0) : S50000x128.Idx → EReal) (ix2 v d))
    (w := fun d => (m ((c : Thread nD τ).loc main_arg2) : S1x128.Idx → EReal) (ix2 (0 : Fin 1) d))
    (fun e => Cert.ReferenceIdeal.Norm.nrm_real _ e) (fun v d => hx _) (fun d => hw _) r
  beta_reduce at key
  exact key

end Cert.KernelIdeal.Hand

end
-- ==== Proof.lean ====
/-
  The certificate of the kernel against its reference: a node-feature matrix `x : [50000, 128]`, propagated twice
  along a graph's edges with symmetric-normalisation weights and then projected onto a weight row, plus a bias. The
  kernel projects first (its one region, the matrix-vector product `x·Wᵀ`, ten blocks of 5000 rows) and propagates
  the resulting column on the host; the reference propagates the matrix and projects last. The two frames of the
  kernel's programs are the generated ones; the reference's frame is its run with the result dropped; the ideal
  pass rewrote nothing, so `preserves` holds trivially; and `algebraic` is the linearity of the propagation over
  real weights, features and projection row (Proof/Bridge.lean), the features and the row real by the precondition.
-/
import proofs.«100970_j91250875171026_2_alg».proof.Defs
import proofs.«100970_j91250875171026_2_alg».proof.Proof.Gen.Kernel
import proofs.«100970_j91250875171026_2_alg».proof.Proof.Gen.Kernel.Skeleton
import proofs.«100970_j91250875171026_2_alg».proof.Proof.Gen.Kernel.Launch
import proofs.«100970_j91250875171026_2_alg».proof.Proof.Gen.Kernel.Points
import proofs.«100970_j91250875171026_2_alg».proof.Proof.Gen.Kernel.Frame
import proofs.«100970_j91250875171026_2_alg».proof.Proof.Gen.KernelIdeal
import proofs.«100970_j91250875171026_2_alg».proof.Proof.Gen.KernelIdeal.Skeleton
import proofs.«100970_j91250875171026_2_alg».proof.Proof.Gen.KernelIdeal.Launch
import proofs.«100970_j91250875171026_2_alg».proof.Proof.Gen.KernelIdeal.Points
import proofs.«100970_j91250875171026_2_alg».proof.Proof.Gen.KernelIdeal.Frame
import proofs.«100970_j91250875171026_2_alg».proof.Proof.Gen.ReferenceIdeal
import proofs.«100970_j91250875171026_2_alg».proof.Proof.Gen.Pre_finite_inputs
import proofs.«100970_j91250875171026_2_alg».proof.Proof.RefRunP
import proofs.«100970_j91250875171026_2_alg».proof.Proof.RefReadP
import proofs.«100970_j91250875171026_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- Both idealized programs end with equal results: the kernel's result buffer holds the tail of its region's
    projection, the reference's its composed term of the same arguments, and the two are one function of them. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.1, (hagree c).2.2.2]
  exact (Cert.KernelIdeal.Hand.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
